-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S8192 : Shape := ⟨1, ![8192]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x1 .f32) (main_arg12 : FVec F S1 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x1600000 32) (main_arg2 : IVec S8192 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x1600000 : Shape := ⟨2, ![2, 1600000]⟩
abbrev S8192 : Shape := ⟨1, ![8192]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S5000x128 : Shape := ⟨2, ![5000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S8192x1 : Shape := ⟨2, ![8192, 1]⟩
abbrev S8192x128 : Shape := ⟨2, ![8192, 128]⟩
abbrev S2048x128 : Shape := ⟨2, ![2048, 128]⟩
abbrev S2048x1 : Shape := ⟨2, ![2048, 1]⟩
abbrev S2048x64 : Shape := ⟨2, ![2048, 64]⟩
abbrev S1x64 : Shape := ⟨2, ![1, 64]⟩
abbrev S1x1 : Shape := ⟨2, ![1, 1]⟩

abbrev nBuf : Space → Nat
  | .hbm => 57
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S8192, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S50000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S50000x128, .f32⟩
  | .hbm, ⟨29, _⟩ => ⟨S1600000x1, .i32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S50000x128, .f32⟩
  | .hbm, ⟨43, _⟩ => ⟨S1600000x1, .i32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S8192x1, .i32⟩
  | .hbm, ⟨54, _⟩ => ⟨S8192x128, .f32⟩
  | .hbm, ⟨55, _⟩ => ⟨S8192x1, .f32⟩
  | .hbm, ⟨56, _⟩ => ⟨S8192, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S2048x128, .f32⟩
  | .local _ .vmem, ⟨23, _⟩ => ⟨S2048x128, .f32⟩
  | .local _ .vmem, ⟨24, _⟩ => ⟨S128x64, .f32⟩
  | .local _ .vmem, ⟨25, _⟩ => ⟨S64, .f32⟩
  | .local _ .vmem, ⟨26, _⟩ => ⟨S64x1, .f32⟩
  | .local _ .vmem, ⟨27, _⟩ => ⟨S1, .f32⟩
  | .local _ .vmem, ⟨28, _⟩ => ⟨S2048x1, .f32⟩
  | .local _ .vmem, ⟨29, _⟩ => ⟨S2048x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  shapeCasts_S5000x128_S5000x128 : S5000x128.ShapeCasts S5000x128
  bcast_S_S8192 : S_.BroadcastsInDim S8192 (![] : Fin 0 → Fin S8192.rank)
  bcast_S8192_S8192x1_0 : S8192.BroadcastsInDim S8192x1 (![0] : Fin 1 → Fin S8192x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S8192x1_S8192 : S8192x1.ShapeCasts S8192
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  gather_S50000x128_S8192x1_S8192x128_1_0_n_n_0_1_1128_wf : GatherDims.WF S50000x128 S8192x1 S8192x128 [1] [0] [] [0] [] 1 ![1, 128]
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S8192x128.size a
  hwx3_0 : ∀ i : grid3.Coords, EltTy.bits .f32 = 32 ∨ (Rect.block (s := S8192x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1.size a ≤ S1.size a
  hwx3_4 : ∀ i : grid3.Coords, EltTy.bits .f32 = 32 ∨ (Rect.block (s := S1) S1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x1.size a ≤ S8192x1.size a
  hwx3_5 : ∀ i : grid3.Coords, EltTy.bits .f32 = 32 ∨ (Rect.block (s := S8192x1) S2048x1.size (cc3_transform_5 i) (hinb3_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def gather_S50000x128_S8192x1_S8192x128_1_0_n_n_0_1_1128 : GatherDims S50000x128 S8192x1 S8192x128 where
  offsetDims := [1]
  collapsedSliceDims := [0]
  operandBatchingDims := []
  startIndicesBatchingDims := []
  startIndexMap := [0]
  indexVectorDim := 1
  sliceSizes := ![1, 128]
  wf := gather_S50000x128_S8192x1_S8192x128_1_0_n_n_0_1_1128_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v33) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v34) S2048x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S8192 : Shape := ⟨1, ![8192]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S8192x1 : Shape := ⟨2, ![8192, 1]⟩
abbrev S8192x128 : Shape := ⟨2, ![8192, 128]⟩
abbrev S8192x64 : Shape := ⟨2, ![8192, 64]⟩
abbrev S1x64 : Shape := ⟨2, ![1, 64]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S8192, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S_, .f32⟩
  | .hbm, ⟨22, _⟩ => ⟨S50000x128, .f32⟩
  | .hbm, ⟨23, _⟩ => ⟨S50000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S50000x128, .f32⟩
  | .hbm, ⟨35, _⟩ => ⟨S1600000x1, .i32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S50000x128, .f32⟩
  | .hbm, ⟨56, _⟩ => ⟨S1600000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S8192, .i32⟩
  | .hbm, ⟨68, _⟩ => ⟨S8192, .i1⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .i32⟩
  | .hbm, ⟨73, _⟩ => ⟨S8192x1, .i32⟩
  | .hbm, ⟨74, _⟩ => ⟨S8192x128, .f32⟩
  | .hbm, ⟨75, _⟩ => ⟨S8192x64, .f32⟩
  | .hbm, ⟨76, _⟩ => ⟨S1x64, .f32⟩
  | .hbm, ⟨77, _⟩ => ⟨S8192x64, .f32⟩
  | .hbm, ⟨78, _⟩ => ⟨S8192x64, .f32⟩
  | .hbm, ⟨79, _⟩ => ⟨S_, .f32⟩
  | .hbm, ⟨80, _⟩ => ⟨S8192x64, .f32⟩
  | .hbm, ⟨81, _⟩ => ⟨S8192x64, .f32⟩
  | .hbm, ⟨82, _⟩ => ⟨S8192x1, .f32⟩
  | .hbm, ⟨83, _⟩ => ⟨S1x1, .f32⟩
  | .hbm, ⟨84, _⟩ => ⟨S8192x1, .f32⟩
  | .hbm, ⟨85, _⟩ => ⟨S8192x1, .f32⟩
  | .hbm, ⟨86, _⟩ => ⟨S8192, .f32⟩
  | .hbm, ⟨87, _⟩ => ⟨S8192, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S_, .f32⟩
  | .hbm, ⟨93, _⟩ => ⟨S8192, .f32⟩
  | .hbm, ⟨94, _⟩ => ⟨S8192, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_cst : Ref sig .tc := ⟨.hbm, 42, rfl⟩
abbrev main_call1_v0 : Ref sig .tc := ⟨.hbm, 43, rfl⟩
abbrev main_v24 : Ref sig .tc := ⟨.hbm, 44, rfl⟩
abbrev main_c_1 : Ref sig .tc := ⟨.hbm, 45, rfl⟩
abbrev main_v25 : Ref sig .tc := ⟨.hbm, 46, rfl⟩
abbrev main_v26 : Ref sig .tc := ⟨.hbm, 47, rfl⟩
abbrev main_c_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call2_cst : Ref sig .tc := ⟨.hbm, 63, rfl⟩
abbrev main_call2_v0 : Ref sig .tc := ⟨.hbm, 64, rfl⟩
abbrev main_v40 : Ref sig .tc := ⟨.hbm, 65, rfl⟩
abbrev main_c_4 : Ref sig .tc := ⟨.hbm, 66, rfl⟩
abbrev main_v41 : Ref sig .tc := ⟨.hbm, 67, rfl⟩
abbrev main_v42 : Ref sig .tc := ⟨.hbm, 68, rfl⟩
abbrev main_c_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call3_cst : Ref sig .tc := ⟨.hbm, 79, rfl⟩
abbrev main_call3_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_6 : Ref sig .tc := ⟨.hbm, 89, rfl⟩
abbrev main_v60 : Ref sig .tc := ⟨.hbm, 90, rfl⟩
abbrev main_v61 : Ref sig .tc := ⟨.hbm, 91, rfl⟩
abbrev main_cst_7 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S8192 : S_.BroadcastsInDim S8192 (![] : Fin 0 → Fin S8192.rank)
  bcast_S8192_S8192x1_0 : S8192.BroadcastsInDim S8192x1 (![0] : Fin 1 → Fin S8192x1.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  gather_S50000x128_S8192x1_S8192x128_1_0_n_n_0_1_1128_wf : GatherDims.WF S50000x128 S8192x1 S8192x128 [1] [0] [] [0] [] 1 ![1, 128]
  dot_S8192x128_S128x64_S8192x64_1_0_0_1_n_n_wf : DotDims.WF S8192x128 S128x64 S8192x64 [1] [0] [0] [1] [] []
  dot_S8192x64_S64x1_S8192x1_1_0_0_1_n_n_wf : DotDims.WF S8192x64 S64x1 S8192x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def gather_S50000x128_S8192x1_S8192x128_1_0_n_n_0_1_1128 : GatherDims S50000x128 S8192x1 S8192x128 where
  offsetDims := [1]
  collapsedSliceDims := [0]
  operandBatchingDims := []
  startIndicesBatchingDims := []
  startIndexMap := [0]
  indexVectorDim := 1
  sliceSizes := ![1, 128]
  wf := gather_S50000x128_S8192x1_S8192x128_1_0_n_n_0_1_1128_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

class Facts : Prop extends Facts₀ where

variable [Facts]
-- ==== Proof.Run.lean ====
/-
  The whole program's run, with every buffer named.  The program is five stretches of host operations around four
  kernel regions; from any launch memory every weakly fair execution terminates, nothing faulting, and every buffer
  that outlives the regions ends at the contents the last boundary of the chain of stretches and regions gives it: the
  launch contents pushed through the first stretch, the first region's write-backs, the second stretch, and so on.
  Reading one buffer of that last boundary is then a computation over the chain, done elsewhere.
-/
import proofs.«151546_j37460704755812_1_alg».proof.Proof.Gen.KernelIdeal.Frame

noncomputable section

namespace Cert.Net.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same run read at the result buffer and at the thirteen argument buffers. -/
theorem run_result : θ_run defs (onTc (τ := τ) (main (F := F))) ⟨m, fun _ => 0, ρ⟩ (fun r => ∀ c : Dev nD,
      r.2.mem ((c.tc : Thread nD τ).loc main_v35) = W9 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v35 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c)⟩)
    (run_all m ρ)

end Cert.Net.Run

end
-- ==== Proof.LibRowDot.lean ====
/-
  A rows-by-columns product read at an index.

  For the plain dimension numbers of an [M, K] by [K, N] product (the left operand contracted on its axis 1, the
  right on its axis 0, no batch axis) the sum over the contraction index of the operands' products at output
  element (p, q) is the sum over k < K of left (p, k) times right (k, q).  Both a matmul into a zero
  accumulator and the host's dot_general are that sum on the extended reals.
-/
import Idealize.ShloMosaic.PureOps.Ideal.Laws
import Idealize.ShloMosaic.Lib.ValueIdx

noncomputable section

namespace Idealize.ShloMosaic.RowDot

open Idealize.ShloMosaic Idealize.ShloMosaic.ValueIdx

variable {M K N : Nat}

/-- The contraction's sum of a plain product at output element j, re-indexed by the contracted coordinate. -/
theorem plain_sum (l : (⟨2, ![M, K]⟩ : Shape).Idx → EReal) (r : (⟨2, ![K, N]⟩ : Shape).Idx → EReal)
    (j : (⟨2, ![M, N]⟩ : Shape).Idx) :
    ∑ k : (DotDims.plain M K N).contr.Idx,
        l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => rfl)
  exact congr (congrArg (fun a b : EReal => a * b) (congrArg l el)) (congrArg r er)

/-- A matmul into the zero accumulator, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, (l (ix2 p k) : EReal) * (r (ix2 k q) : EReal) := by
  rw [Ideal.matmul_constant_zero_apply]
  exact plain_sum (M := M) (K := K) (N := N) l r (ix2 p q)

/-- The host's dot_general, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q)
      = ∑ k : Fin K, (l (ix2 p k) : EReal) * (r (ix2 k q) : EReal) := by
  rw [Ideal.dotGeneral_apply]
  exact plain_sum (M := M) (K := K) (N := N) l r (ix2 p q)

end Idealize.ShloMosaic.RowDot

end
-- ==== Proof.Spec.lean ====
/-
  The layers of the network, element by element on the extended reals.

  An affine layer sends a matrix X of rows to X·W + b: row p, column q is the sum over k of X(p,k)·W(k,q), plus b(q).
  Followed by the positive part max(·, 0) it is a rectified layer; the read-out applies the logistic function to an
  affine layer of a rectified layer.  Row p of a layer's result depends on row p of X only, which is why a layer
  computed block of rows by block of rows is the layer of the whole matrix.

  Two spellings of each layer are identified with it here.  One computes the product as a matrix product into a zero
  accumulator of operands whose format is narrowed first (a narrowing is the identity on the extended reals), adds the
  bias as a row [1, N] repeated down the rows, and takes the maximum with a splat zero.  The other computes it as a
  general dot product, adds the bias broadcast in two steps, and takes the maximum with a broadcast scalar zero; its
  logistic function is spelt 1 / (1 + exp(-x)) on a flattened column.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«151546_j37460704755812_1_alg».proof.Proof.LibRowDot

noncomputable section

namespace Cert.Net

open Idealize.ShloMosaic Idealize.ShloMosaic.ValueIdx

variable {M M' K N : Nat}

/-! ## The layers -/

/-- X·W + b at (p, q): the sum over k of X(p,k)·W(k,q), plus b(q). -/
def affine (X : FVec Ideal ⟨2, ![M, K]⟩ .f32) (W : FVec Ideal ⟨2, ![K, N]⟩ .f32) (b : FVec Ideal ⟨1, ![N]⟩ .f32) :
    FVec Ideal ⟨2, ![M, N]⟩ .f32 :=
  fun i => ((∑ k : Fin K, (X (ix2 (i 0) k) : EReal) * (W (ix2 k (i 1)) : EReal)) + (b (ix1 (i 1)) : EReal) : EReal)

/-- The positive part of a matrix, element by element. -/
def posPart {s : Shape} (Y : FVec Ideal s .f32) : FVec Ideal s .f32 := fun i => (max (Y i : EReal) 0 : EReal)

/-- The rectified layer max(X·W + b, 0). -/
def reluAffine (X : FVec Ideal ⟨2, ![M, K]⟩ .f32) (W : FVec Ideal ⟨2, ![K, N]⟩ .f32) (b : FVec Ideal ⟨1, ![N]⟩ .f32) :
    FVec Ideal ⟨2, ![M, N]⟩ .f32 :=
  posPart (affine X W b)

/-- The logistic function of a matrix, element by element. -/
def sigmoid {s : Shape} (Y : FVec Ideal s .f32) : FVec Ideal s .f32 := fun i => Ideal.logistic (Y i)

/-- The read-out: the logistic function of an affine layer of a rectified layer, a column [M, 1]. -/
def readOut (P : FVec Ideal ⟨2, ![M, K]⟩ .f32) (W1 : FVec Ideal ⟨2, ![K, N]⟩ .f32) (b1 : FVec Ideal ⟨1, ![N]⟩ .f32)
    (W2 : FVec Ideal ⟨2, ![N, 1]⟩ .f32) (b2 : FVec Ideal ⟨1, ![1]⟩ .f32) : FVec Ideal ⟨2, ![M, 1]⟩ .f32 :=
  sigmoid (affine (reluAffine P W1 b1) W2 b2)

/-! ## A layer's row depends on the same row of its input only -/

/-- Two affine layers agree at two elements as soon as the rows, the columns and the bias entries they read agree. -/
theorem affine_congr (X : FVec Ideal ⟨2, ![M, K]⟩ .f32) (X' : FVec Ideal ⟨2, ![M', K]⟩ .f32)
    (W W' : FVec Ideal ⟨2, ![K, N]⟩ .f32) (b b' : FVec Ideal ⟨1, ![N]⟩ .f32)
    (j : (⟨2, ![M, N]⟩ : Shape).Idx) (j' : (⟨2, ![M', N]⟩ : Shape).Idx)
    (hX : ∀ k : Fin K, X (ix2 (j 0) k) = X' (ix2 (j' 0) k))
    (hW : ∀ k : Fin K, W (ix2 k (j 1)) = W' (ix2 k (j' 1)))
    (hb : b (ix1 (j 1)) = b' (ix1 (j' 1))) :
    affine X W b j = affine X' W' b' j' := by
  unfold affine
  rw [hb]
  exact congrArg (fun a : EReal => a + (b' (ix1 (j' 1)) : EReal))
    (Finset.sum_congr rfl fun k _ => by rw [hX k, hW k])

/-- The same for the rectified layer. -/
theorem reluAffine_congr (X : FVec Ideal ⟨2, ![M, K]⟩ .f32) (X' : FVec Ideal ⟨2, ![M', K]⟩ .f32)
    (W W' : FVec Ideal ⟨2, ![K, N]⟩ .f32) (b b' : FVec Ideal ⟨1, ![N]⟩ .f32)
    (j : (⟨2, ![M, N]⟩ : Shape).Idx) (j' : (⟨2, ![M', N]⟩ : Shape).Idx)
    (hX : ∀ k : Fin K, X (ix2 (j 0) k) = X' (ix2 (j' 0) k))
    (hW : ∀ k : Fin K, W (ix2 k (j 1)) = W' (ix2 k (j' 1)))
    (hb : b (ix1 (j 1)) = b' (ix1 (j' 1))) :
    reluAffine X W b j = reluAffine X' W' b' j' := by
  unfold reluAffine posPart
  rw [affine_congr X X' W W' b b' j j' hX hW hb]

/-- The same for the read-out: its row p reads row p of the input only. -/
theorem readOut_congr (P : FVec Ideal ⟨2, ![M, K]⟩ .f32) (P' : FVec Ideal ⟨2, ![M', K]⟩ .f32)
    (W1 W1' : FVec Ideal ⟨2, ![K, N]⟩ .f32) (b1 b1' : FVec Ideal ⟨1, ![N]⟩ .f32)
    (W2 W2' : FVec Ideal ⟨2, ![N, 1]⟩ .f32) (b2 b2' : FVec Ideal ⟨1, ![1]⟩ .f32)
    (j : (⟨2, ![M, 1]⟩ : Shape).Idx) (j' : (⟨2, ![M', 1]⟩ : Shape).Idx)
    (hP : ∀ k : Fin K, P (ix2 (j 0) k) = P' (ix2 (j' 0) k))
    (hW1 : W1 = W1') (hb1 : b1 = b1') (hW2 : W2 = W2') (hb2 : b2 = b2') :
    readOut P W1 b1 W2 b2 j = readOut P' W1' b1' W2' b2' j' := by
  subst hW1 hb1 hW2 hb2
  have h1 : ∀ q q' : Fin 1, q = q' := fun q q' => Subsingleton.elim q q'
  unfold readOut sigmoid
  refine congrArg Ideal.logistic ?_
  refine affine_congr _ _ W2 W2 b2 b2 j j' (fun n => ?_)
    (fun n => congrArg (fun q : Fin 1 => W2 (ix2 n q)) (h1 (j 1) (j' 1)))
    (congrArg (fun q : Fin 1 => b2 (ix1 q)) (h1 (j 1) (j' 1)))
  exact reluAffine_congr P P' W1 W1 b1 b1 (ix2 (j 0) n) (ix2 (j' 0) n) hP (fun _ => rfl) rfl

/-! ## The matrix-product spelling -/

/-- The bias as a row [1, N] repeated down M rows reads b(q) at (p, q). -/
theorem rowBias_apply (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (q : Fin N) :
    broadcastTo ⟨2, ![M, N]⟩ (shapeCast ⟨2, ![1, N]⟩ b hc) hb (ix2 p q) = b (ix1 q) := by
  rw [broadcastTo_1b_ab_apply, shapeCast_a_1a_apply]

/-- A matrix product of narrowed operands into a zero accumulator, plus the repeated bias row, is the affine layer. -/
theorem affine_matmul (hlt : FTy.bits .bf16 < FTy.bits .f32) (X : FVec Ideal ⟨2, ![M, K]⟩ .f32)
    (W : FVec Ideal ⟨2, ![K, N]⟩ .f32) (b : FVec Ideal ⟨1, ![N]⟩ .f32)
    (hc : (⟨1, ![N]⟩ : Shape).ShapeCasts ⟨2, ![1, N]⟩) (hb : (⟨2, ![1, N]⟩ : Shape).Broadcasts ⟨2, ![M, N]⟩) :
    addf (matmul (DotDims.plain M K N) none (truncf .bf16 X hlt) (truncf .bf16 W hlt)
        (constant ⟨2, ![M, N]⟩ .f32 0x00000000#32))
      (broadcastTo ⟨2, ![M, N]⟩ (shapeCast ⟨2, ![1, N]⟩ b hc) hb) = affine X W b := by
  funext j
  obtain ⟨p, q, rfl⟩ : ∃ (p : Fin M) (q : Fin N), j = ix2 p q := ⟨j 0, j 1, eq_ix2 j⟩
  rw [addf_apply, rowBias_apply]
  unfold affine
  exact congrArg (fun a : EReal => a + (b (ix1 q) : EReal))
    (RowDot.matmul_zero_apply none (truncf .bf16 X hlt) (truncf .bf16 W hlt) p q)

/-- The maximum with a splat of the zero word is the positive part. -/
theorem posPart_splat {s : Shape} (Y : FVec Ideal s .f32) :
    maximumf Y (broadcast s (Scalar.ofBits (F := Ideal) .f32 0x00000000#32)) = posPart Y := by
  funext i
  rw [maximumf_apply, broadcast_apply]
  show max (Y i : EReal) (Ideal.ofBits .f32 0x00000000#32) = max (Y i : EReal) 0
  rw [Ideal.ofBits_zero_f32]

/-! ## The general-dot-product spelling -/

/-- The bias broadcast to a row [1, N] and then to [M, N] reads b(q) at (p, q). -/
theorem hostBias_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : q.val = if N = 1 then 0 else q.val := by
    split
    · have := q.isLt; omega
    · rfl
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => rfl
    | ⟨1, _⟩ => exact hq
  · match a with
    | ⟨0, _⟩ => exact hq

/-- A scalar constant broadcast to any shape reads the constant everywhere. -/
theorem hostSplat_apply {s : Shape} (w : BitVec 32) (h0 : (⟨0, ![]⟩ : Shape).BroadcastsInDim s ![]) (i : s.Idx) :
    broadcastInDim s ![] h0 (constant (F := Ideal) ⟨0, ![]⟩ .f32 w) i = Ideal.ofBits .f32 w :=
  broadcastInDim_apply ![] h0 _ i ix0 fun a => a.elim0

/-- A general dot product plus the broadcast bias is the affine layer. -/
theorem affine_host (X : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (DotDims.plain M K N) none X W)
      (broadcastInDim ⟨2, ![M, N]⟩ ![0, 1] h2 (broadcastInDim ⟨2, ![1, N]⟩ ![1] h1 b)) = affine X W b := by
  funext j
  obtain ⟨p, q, rfl⟩ : ∃ (p : Fin M) (q : Fin N), j = ix2 p q := ⟨j 0, j 1, eq_ix2 j⟩
  rw [addf_apply, hostBias_apply]
  unfold affine
  exact congrArg (fun a : EReal => a + (b (ix1 q) : EReal)) (RowDot.dotGeneral_apply none _ X W p q)

/-- The maximum with a broadcast scalar zero is the positive part. -/
theorem posPart_host {s : Shape} (Y : FVec Ideal s .f32) (h0 : (⟨0, ![]⟩ : Shape).BroadcastsInDim s ![]) :
    maximumf Y (broadcastInDim s ![] h0 (constant (F := Ideal) ⟨0, ![]⟩ .f32 0x00000000#32)) = posPart Y := by
  funext i
  rw [maximumf_apply, hostSplat_apply]
  show max (Y i : EReal) (Ideal.ofBits .f32 0x00000000#32) = max (Y i : EReal) 0
  rw [Ideal.ofBits_zero_f32]

/-- 1 / (1 + exp(-y)) on a flattened column is the flattened logistic function of the column: the logistic function
    IS that expression on every extended real, and flattening only renames the indices. -/
theorem sigmoid_host {n : Nat} (Y : FVec Ideal ⟨2, ![n, 1]⟩ .f32)
    (hc : (⟨2, ![n, 1]⟩ : Shape).ShapeCasts ⟨1, ![n]⟩) (h0 : (⟨0, ![]⟩ : Shape).BroadcastsInDim ⟨1, ![n]⟩ ![]) :
    Host.divf (broadcastInDim ⟨1, ![n]⟩ ![] h0 (constant (F := Ideal) ⟨0, ![]⟩ .f32 0x3F800000#32))
      (addf (broadcastInDim ⟨1, ![n]⟩ ![] h0 (constant (F := Ideal) ⟨0, ![]⟩ .f32 0x3F800000#32))
        (Host.exp (Host.negf (shapeCast ⟨1, ![n]⟩ Y hc)))) = shapeCast ⟨1, ![n]⟩ (sigmoid Y) hc := by
  funext i
  have h1 : broadcastInDim ⟨1, ![n]⟩ ![] h0 (constant (F := Ideal) ⟨0, ![]⟩ .f32 0x3F800000#32) i = (1 : EReal) :=
    (hostSplat_apply _ h0 i).trans Ideal.ofBits_one_f32
  show FloatOps.hostDivf (broadcastInDim ⟨1, ![n]⟩ ![] h0 (constant (F := Ideal) ⟨0, ![]⟩ .f32 0x3F800000#32) i)
      (FloatOps.addf (broadcastInDim ⟨1, ![n]⟩ ![] h0 (constant (F := Ideal) ⟨0, ![]⟩ .f32 0x3F800000#32) i)
        (FloatOps.hostUnary .exp (FloatOps.hostNegf (shapeCast ⟨1, ![n]⟩ Y hc i)))) = _
  rw [h1]
  rfl

end Cert.Net

end
-- ==== Proof.Enc.lean ====
/-
  The encoder region: ten blocks of 5000 rows.  At every grid point the body stores, into the point's block of the
  output, the rectified layer of the point's block of the features with the whole weight matrix and the whole bias.
  A row of the layer reads the same row of the features only, so block t of the output is block t of the rectified
  layer of the whole feature matrix; the ten blocks tile the 50000 rows, so the output array ends as that layer.
-/
import proofs.«151546_j37460704755812_1_alg».proof.Proof.Gen.KernelIdeal.Frame
import proofs.«151546_j37460704755812_1_alg».proof.Proof.Spec
import Idealize.ShloMosaic.Lib.Pipeline.Value

noncomputable section

namespace Cert.Net.Enc

open Cert.KernelIdeal Cert.KernelIdeal.Gen Cert.KernelIdeal.Facts₀ Cert.Net
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic is the rectified layer of its three loaded blocks. -/
theorem pay_eq (x0 : Vec Ideal S5000x128 .f32) (x1 : Vec Ideal S128x128 .f32) (x2 : Vec Ideal S128 .f32) :
    k0_pay1 x0 x1 x2 = reluAffine (M := 5000) (K := 128) (N := 128) x0 x1 x2 := by
  unfold k0_pay1
  exact (congrArg (fun Y => maximumf Y (broadcast S5000x128 (Scalar.ofBits (F := Ideal) .f32 0x00000000#32)))
    (affine_matmul (M := 5000) (K := 128) (N := 128) _ x0 x1 x2 _ _)).trans (posPart_splat _)

/-- The index maps over the grid: the feature block and the output block move together down the rows, the weights
    and the bias stay put, and point t's row block is block t. -/
theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 1) = 0 ∧ win0_3.index t (1 : Fin 2) = 0 ∧ win0_3.index t (0 : Fin 2) = t.val :=
  (by decide +kernel : ∀ t : Fin grid0.N, _)

/-- What point t writes back is block t of the rectified layer of the arrays the region finds. -/
theorem flushed_eq (c : Dev nD) (t : Fin cfg0.N) :
    (dat0 V c).flushed 3 t = ((cfg0.win 3).blk t).view.read (Elt Ideal)
      (reluAffine (M := 50000) (K := 128) (N := 128) (V c main_arg0) (V c main_arg3) (V c main_arg4)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S128) hz1]
  rw [pay_eq]
  obtain ⟨e0, e1, e2, e3, e4, e5, e6⟩ := idx_facts t
  funext j
  show reluAffine (M := 5000) (K := 128) (N := 128) (iblk0 V c 0 t) (iblk0 V c 1 t) (iblk0 V c 2 t) j
      = reluAffine (M := 50000) (K := 128) (N := 128) (V c main_arg0) (V c main_arg3) (V c main_arg4) (((cfg0.win 3).blk t).view.emb j)
  refine reluAffine_congr (M := 5000) (M' := 50000) (K := 128) (N := 128) (iblk0 V c 0 t) (V c main_arg0) (iblk0 V c 1 t)
    (V c main_arg3) (iblk0 V c 2 t) (V c main_arg4) j (((cfg0.win 3).blk t).view.emb j) (fun k => ?_) (fun k => ?_) ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V c main_arg3 (((cfg0.win 1).blk t).view.emb (ix2 k (j 1))) = V c main_arg3 (ix2 k ((((cfg0.win 3).blk t).view.emb j) 1))
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · show V c main_arg4 (((cfg0.win 2).blk t).view.emb (ix1 (j 1))) = V c main_arg4 (ix1 ((((cfg0.win 3).blk t).view.emb j) 1))
    refine congrArg (V c main_arg4) (funext fun a => Fin.ext ?_)
    match a with
    | ⟨0, _⟩ => show win0_2.index t (0 : Fin 1) * 128 + 1 * (j 1).val = win0_3.index t (1 : Fin 2) * 128 + 1 * (j 1).val; omega

/-- An index of the output array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v4).slice (win0_3.rect t)).set ↔ _
  rw [View.set_slice_whole, Rect.mem_set_unit]
  exact Iff.rfl

/-- Row r of the output is in the block of point r / 5000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  have ht : (i 0).val / 5000 < grid0.N := by omega
  obtain ⟨-, -, -, -, -, e5, e6⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    have e6' : win0_3.index ⟨(i 0).val / 5000, ht⟩ (0 : Fin 2) = (i 0).val / 5000 := e6
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    omega

/-- The output array after the region: the rectified layer of the features, the weights and the bias it found. -/
theorem value (c : Dev nD) : (dat0 V c).arrAt 3 cfg0.N
    = reluAffine (M := 50000) (K := 128) (N := 128) (V c main_arg0) (V c main_arg3) (V c main_arg4) :=
  (dat0 V c).arrAt_eq_of_cover 3 _ (fun t _ => flushed_eq V c t) cover

end Cert.Net.Enc

end
-- ==== Proof.Conv1.lean ====
/-
  The first aggregation-and-layer region: ten blocks of 5000 rows.  At every grid point the body adds the point's block of the
  aggregated neighbour features to the point's block of the node features and stores the rectified layer of that sum,
  with the whole weight matrix and bias, into the point's block of the output.  A row of the layer reads the same row
  of the two inputs only, so block t of the output is block t of the rectified layer of the sum of the two whole
  arrays; the ten blocks tile the 50000 rows, so the output array ends as that layer.
-/
import proofs.«151546_j37460704755812_1_alg».proof.Proof.Gen.KernelIdeal.Frame
import proofs.«151546_j37460704755812_1_alg».proof.Proof.Spec
import Idealize.ShloMosaic.Lib.Pipeline.Value

noncomputable section

namespace Cert.Net.Conv1

open Cert.KernelIdeal Cert.KernelIdeal.Gen Cert.Net
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic is the rectified layer of the sum of its first two loaded blocks. -/
theorem pay_eq (x0 x1 : Vec Ideal S5000x128 .f32) (x2 : Vec Ideal S128x128 .f32) (x3 : Vec Ideal S128 .f32) :
    k1_pay1 x0 x1 x2 x3 = reluAffine (M := 5000) (K := 128) (N := 128) (addf x0 x1) x2 x3 := by
  have h0 : shapeCast S5000x128 x0 Facts₀.shapeCasts_S5000x128_S5000x128 = x0 := shapeCast_self _ _
  have h1 : shapeCast S5000x128 x1 Facts₀.shapeCasts_S5000x128_S5000x128 = x1 := shapeCast_self _ _
  simp only [k1_pay1, h0, h1]
  exact (congrArg (fun Y => maximumf Y (broadcast S5000x128 (Scalar.ofBits (F := Ideal) .f32 0x00000000#32)))
    (affine_matmul (M := 5000) (K := 128) (N := 128) _ (addf x0 x1) x2 x3 _ _)).trans (posPart_splat _)

/-- The index maps over the grid: the two input blocks and the output block move together down the rows, the weights
    and the bias stay put, and point t's row block is block t. -/
theorem idx_facts : ∀ t : Fin cfg1.N, win1_0.index t (0 : Fin 2) = win1_4.index t (0 : Fin 2)
    ∧ win1_0.index t (1 : Fin 2) = 0 ∧ win1_1.index t (0 : Fin 2) = win1_4.index t (0 : Fin 2)
    ∧ win1_1.index t (1 : Fin 2) = 0 ∧ win1_2.index t (0 : Fin 2) = 0 ∧ win1_2.index t (1 : Fin 2) = 0
    ∧ win1_3.index t (0 : Fin 1) = 0 ∧ win1_4.index t (1 : Fin 2) = 0 ∧ win1_4.index t (0 : Fin 2) = t.val :=
  (by decide +kernel : ∀ t : Fin grid1.N, _)

/-- What point t writes back is block t of the rectified layer of the sum of the two arrays the region finds. -/
theorem flushed_eq (c : Dev nD) (t : Fin cfg1.N) :
    (dat1 V c).flushed 4 t = ((cfg1.win 4).blk t).view.read (Elt Ideal)
      (reluAffine (M := 50000) (K := 128) (N := 128) (addf (V c main_v14) (V c main_v4)) (V c main_arg5) (V c main_arg6)) := by
  show (cfg1.win 4).cut (grid1.coords t) ((dat1 V c).after 4 t) = _
  rw [after1_4]
  unfold out1_4
  rw [View.canon_unit_zero hz2]
  simp only [View.ld_unit_zero (S := S5000x128) hz2, View.ld_unit_zero (S := S128x128) hz2, View.ld_unit_zero (S := S128) hz1]
  rw [pay_eq]
  obtain ⟨e0, e1, e2, e3, e4, e5, e6, e7, e8⟩ := idx_facts t
  funext j
  show reluAffine (M := 5000) (K := 128) (N := 128) (addf (iblk1 V c 0 t) (iblk1 V c 1 t)) (iblk1 V c 2 t) (iblk1 V c 3 t) j
      = reluAffine (M := 50000) (K := 128) (N := 128) (addf (V c main_v14) (V c main_v4)) (V c main_arg5) (V c main_arg6)
        (((cfg1.win 4).blk t).view.emb j)
  refine reluAffine_congr (M := 5000) (M' := 50000) (K := 128) (N := 128) (addf (iblk1 V c 0 t) (iblk1 V c 1 t))
    (addf (V c main_v14) (V c main_v4)) (iblk1 V c 2 t) (V c main_arg5) (iblk1 V c 3 t) (V c main_arg6) j
    (((cfg1.win 4).blk t).view.emb j) (fun k => ?_) (fun k => ?_) ?_
  · have hA : ((cfg1.win 0).blk t).view.emb (ix2 (n0 := 5000) (n1 := 128) (j 0) k)
        = ix2 (n0 := 50000) (n1 := 128) ((((cfg1.win 4).blk t).view.emb j) 0) k :=
      funext fun a => Fin.ext (by
        match a with
        | ⟨0, _⟩ => show win1_0.index t (0 : Fin 2) * 5000 + 1 * (j 0).val = win1_4.index t (0 : Fin 2) * 5000 + 1 * (j 0).val; omega
        | ⟨1, _⟩ => show win1_0.index t (1 : Fin 2) * 128 + 1 * k.val = k.val; omega)
    have hB : ((cfg1.win 1).blk t).view.emb (ix2 (n0 := 5000) (n1 := 128) (j 0) k)
        = ix2 (n0 := 50000) (n1 := 128) ((((cfg1.win 4).blk t).view.emb j) 0) k :=
      funext fun a => Fin.ext (by
        match a with
        | ⟨0, _⟩ => show win1_1.index t (0 : Fin 2) * 5000 + 1 * (j 0).val = win1_4.index t (0 : Fin 2) * 5000 + 1 * (j 0).val; omega
        | ⟨1, _⟩ => show win1_1.index t (1 : Fin 2) * 128 + 1 * k.val = k.val; omega)
    have hA' : iblk1 V c 0 t (ix2 (n0 := 5000) (n1 := 128) (j 0) k)
        = V c main_v14 (ix2 (n0 := 50000) (n1 := 128) ((((cfg1.win 4).blk t).view.emb j) 0) k) := congrArg (V c main_v14) hA
    have hB' : iblk1 V c 1 t (ix2 (n0 := 5000) (n1 := 128) (j 0) k)
        = V c main_v4 (ix2 (n0 := 50000) (n1 := 128) ((((cfg1.win 4).blk t).view.emb j) 0) k) := congrArg (V c main_v4) hB
    exact congr (congrArg (fun a b : EReal => a + b) hA') hB'
  · show V c main_arg5 (((cfg1.win 2).blk t).view.emb (ix2 (n0 := 128) (n1 := 128) k (j 1)))
      = V c main_arg5 (ix2 (n0 := 128) (n1 := 128) k ((((cfg1.win 4).blk t).view.emb j) 1))
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_4.index t (1 : Fin 2) * 128 + 1 * (j 1).val; omega
  · show V c main_arg6 (((cfg1.win 3).blk t).view.emb (ix1 (n := 128) (j 1)))
      = V c main_arg6 (ix1 (n := 128) ((((cfg1.win 4).blk t).view.emb j) 1))
    refine congrArg (V c main_arg6) (funext fun a => Fin.ext ?_)
    match a with
    | ⟨0, _⟩ => show win1_3.index t (0 : Fin 1) * 128 + 1 * (j 1).val = win1_4.index t (1 : Fin 2) * 128 + 1 * (j 1).val; omega

/-- An index of the output array is in point t's block iff each coordinate is in the block's range on its axis. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v15).slice (win1_4.rect t)).set ↔ _
  rw [View.set_slice_whole, Rect.mem_set_unit]
  exact Iff.rfl

/-- Row r of the output is in the block of point r / 5000. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 10 := N_1
  have ht : (i 0).val / 5000 < grid1.N := by omega
  obtain ⟨-, -, -, -, -, -, -, e7, e8⟩ := idx_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    have e8' : win1_4.index ⟨(i 0).val / 5000, ht⟩ (0 : Fin 2) = (i 0).val / 5000 := e8
    omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    omega

/-- The output array after the region: the rectified layer of the sum of the two arrays it found. -/
theorem value (c : Dev nD) : (dat1 V c).arrAt 4 cfg1.N
    = reluAffine (M := 50000) (K := 128) (N := 128) (addf (V c main_v14) (V c main_v4)) (V c main_arg5) (V c main_arg6) :=
  (dat1 V c).arrAt_eq_of_cover 4 _ (fun t _ => flushed_eq V c t) cover

end Cert.Net.Conv1

end
-- ==== Proof.Conv2.lean ====
/-
  The second aggregation-and-layer region: ten blocks of 5000 rows.  At every grid point the body adds the point's block of the
  aggregated neighbour features to the point's block of the node features and stores the rectified layer of that sum,
  with the whole weight matrix and bias, into the point's block of the output.  A row of the layer reads the same row
  of the two inputs only, so block t of the output is block t of the rectified layer of the sum of the two whole
  arrays; the ten blocks tile the 50000 rows, so the output array ends as that layer.
-/
import proofs.«151546_j37460704755812_1_alg».proof.Proof.Gen.KernelIdeal.Frame
import proofs.«151546_j37460704755812_1_alg».proof.Proof.Spec
import Idealize.ShloMosaic.Lib.Pipeline.Value

noncomputable section

namespace Cert.Net.Conv2

open Cert.KernelIdeal Cert.KernelIdeal.Gen Cert.Net
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic is the rectified layer of the sum of its first two loaded blocks. -/
theorem pay_eq (x0 x1 : Vec Ideal S5000x128 .f32) (x2 : Vec Ideal S128x128 .f32) (x3 : Vec Ideal S128 .f32) :
    k2_pay1 x0 x1 x2 x3 = reluAffine (M := 5000) (K := 128) (N := 128) (addf x0 x1) x2 x3 := by
  have h0 : shapeCast S5000x128 x0 Facts₀.shapeCasts_S5000x128_S5000x128 = x0 := shapeCast_self _ _
  have h1 : shapeCast S5000x128 x1 Facts₀.shapeCasts_S5000x128_S5000x128 = x1 := shapeCast_self _ _
  simp only [k2_pay1, h0, h1]
  exact (congrArg (fun Y => maximumf Y (broadcast S5000x128 (Scalar.ofBits (F := Ideal) .f32 0x00000000#32)))
    (affine_matmul (M := 5000) (K := 128) (N := 128) _ (addf x0 x1) x2 x3 _ _)).trans (posPart_splat _)

/-- The index maps over the grid: the two input blocks and the output block move together down the rows, the weights
    and the bias stay put, and point t's row block is block t. -/
theorem idx_facts : ∀ t : Fin cfg2.N, win2_0.index t (0 : Fin 2) = win2_4.index t (0 : Fin 2)
    ∧ win2_0.index t (1 : Fin 2) = 0 ∧ win2_1.index t (0 : Fin 2) = win2_4.index t (0 : Fin 2)
    ∧ win2_1.index t (1 : Fin 2) = 0 ∧ win2_2.index t (0 : Fin 2) = 0 ∧ win2_2.index t (1 : Fin 2) = 0
    ∧ win2_3.index t (0 : Fin 1) = 0 ∧ win2_4.index t (1 : Fin 2) = 0 ∧ win2_4.index t (0 : Fin 2) = t.val :=
  (by decide +kernel : ∀ t : Fin grid2.N, _)

/-- What point t writes back is block t of the rectified layer of the sum of the two arrays the region finds. -/
theorem flushed_eq (c : Dev nD) (t : Fin cfg2.N) :
    (dat2 V c).flushed 4 t = ((cfg2.win 4).blk t).view.read (Elt Ideal)
      (reluAffine (M := 50000) (K := 128) (N := 128) (addf (V c main_v25) (V c main_v15)) (V c main_arg7) (V c main_arg8)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S128x128) hz2, View.ld_unit_zero (S := S128) hz1]
  rw [pay_eq]
  obtain ⟨e0, e1, e2, e3, e4, e5, e6, e7, e8⟩ := idx_facts t
  funext j
  show reluAffine (M := 5000) (K := 128) (N := 128) (addf (iblk2 V c 0 t) (iblk2 V c 1 t)) (iblk2 V c 2 t) (iblk2 V c 3 t) j
      = reluAffine (M := 50000) (K := 128) (N := 128) (addf (V c main_v25) (V c main_v15)) (V c main_arg7) (V c main_arg8)
        (((cfg2.win 4).blk t).view.emb j)
  refine reluAffine_congr (M := 5000) (M' := 50000) (K := 128) (N := 128) (addf (iblk2 V c 0 t) (iblk2 V c 1 t))
    (addf (V c main_v25) (V c main_v15)) (iblk2 V c 2 t) (V c main_arg7) (iblk2 V c 3 t) (V c main_arg8) j
    (((cfg2.win 4).blk t).view.emb j) (fun k => ?_) (fun k => ?_) ?_
  · have hA : ((cfg2.win 0).blk t).view.emb (ix2 (n0 := 5000) (n1 := 128) (j 0) k)
        = ix2 (n0 := 50000) (n1 := 128) ((((cfg2.win 4).blk t).view.emb j) 0) k :=
      funext fun a => Fin.ext (by
        match a with
        | ⟨0, _⟩ => show win2_0.index t (0 : Fin 2) * 5000 + 1 * (j 0).val = win2_4.index t (0 : Fin 2) * 5000 + 1 * (j 0).val; omega
        | ⟨1, _⟩ => show win2_0.index t (1 : Fin 2) * 128 + 1 * k.val = k.val; omega)
    have hB : ((cfg2.win 1).blk t).view.emb (ix2 (n0 := 5000) (n1 := 128) (j 0) k)
        = ix2 (n0 := 50000) (n1 := 128) ((((cfg2.win 4).blk t).view.emb j) 0) k :=
      funext fun a => Fin.ext (by
        match a with
        | ⟨0, _⟩ => show win2_1.index t (0 : Fin 2) * 5000 + 1 * (j 0).val = win2_4.index t (0 : Fin 2) * 5000 + 1 * (j 0).val; omega
        | ⟨1, _⟩ => show win2_1.index t (1 : Fin 2) * 128 + 1 * k.val = k.val; omega)
    have hA' : iblk2 V c 0 t (ix2 (n0 := 5000) (n1 := 128) (j 0) k)
        = V c main_v25 (ix2 (n0 := 50000) (n1 := 128) ((((cfg2.win 4).blk t).view.emb j) 0) k) := congrArg (V c main_v25) hA
    have hB' : iblk2 V c 1 t (ix2 (n0 := 5000) (n1 := 128) (j 0) k)
        = V c main_v15 (ix2 (n0 := 50000) (n1 := 128) ((((cfg2.win 4).blk t).view.emb j) 0) k) := congrArg (V c main_v15) hB
    exact congr (congrArg (fun a b : EReal => a + b) hA') hB'
  · show V c main_arg7 (((cfg2.win 2).blk t).view.emb (ix2 (n0 := 128) (n1 := 128) k (j 1)))
      = V c main_arg7 (ix2 (n0 := 128) (n1 := 128) k ((((cfg2.win 4).blk t).view.emb j) 1))
    refine congrArg (V c main_arg7) (funext fun a => Fin.ext ?_)
    match a with
    | ⟨0, _⟩ => show win2_2.index t (0 : Fin 2) * 128 + 1 * k.val = k.val; omega
    | ⟨1, _⟩ => show win2_2.index t (1 : Fin 2) * 128 + 1 * (j 1).val = win2_4.index t (1 : Fin 2) * 128 + 1 * (j 1).val; omega
  · show V c main_arg8 (((cfg2.win 3).blk t).view.emb (ix1 (n := 128) (j 1)))
      = V c main_arg8 (ix1 (n := 128) ((((cfg2.win 4).blk t).view.emb j) 1))
    refine congrArg (V c main_arg8) (funext fun a => Fin.ext ?_)
    match a with
    | ⟨0, _⟩ => show win2_3.index t (0 : Fin 1) * 128 + 1 * (j 1).val = win2_4.index t (1 : Fin 2) * 128 + 1 * (j 1).val; omega

/-- An index of the output array is in point t's block iff each coordinate is in the block's range on its axis. -/
theorem mem_blk (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v26).slice (win2_4.rect t)).set ↔ _
  rw [View.set_slice_whole, Rect.mem_set_unit]
  exact Iff.rfl

/-- Row r of the output is in the block of point r / 5000. -/
theorem cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : grid2.N = 10 := N_2
  have ht : (i 0).val / 5000 < grid2.N := by omega
  obtain ⟨-, -, -, -, -, -, -, e7, e8⟩ := idx_facts ⟨(i 0).val / 5000, ht⟩
  refine ⟨⟨(i 0).val / 5000, ht⟩, flush2_4 _, ?_⟩
  rw [mem_blk]
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    have e8' : win2_4.index ⟨(i 0).val / 5000, ht⟩ (0 : Fin 2) = (i 0).val / 5000 := e8
    omega
  | ⟨1, _⟩ =>
    show win2_4.index ⟨(i 0).val / 5000, ht⟩ (1 : Fin 2) * 128 ≤ (i 1).val
      ∧ (i 1).val < win2_4.index ⟨(i 0).val / 5000, ht⟩ (1 : Fin 2) * 128 + 128
    omega

/-- The output array after the region: the rectified layer of the sum of the two arrays it found. -/
theorem value (c : Dev nD) : (dat2 V c).arrAt 4 cfg2.N
    = reluAffine (M := 50000) (K := 128) (N := 128) (addf (V c main_v25) (V c main_v15)) (V c main_arg7) (V c main_arg8) :=
  (dat2 V c).arrAt_eq_of_cover 4 _ (fun t _ => flushed_eq V c t) cover

end Cert.Net.Conv2

end
-- ==== Proof.Head.lean ====
/-
  The read-out region: four blocks of 2048 rows.  At every grid point the body stores, into the point's block of the
  output column, the read-out (logistic function of an affine layer of a rectified layer) of the point's block of the
  gathered rows with the whole of the four parameter arrays.  A row of the read-out reads the same row of the gathered
  rows only, so block t of the output is block t of the read-out of the whole gathered matrix; the four blocks tile
  the 8192 rows, so the output column ends as that read-out.
-/
import proofs.«151546_j37460704755812_1_alg».proof.Proof.Gen.KernelIdeal.Frame
import proofs.«151546_j37460704755812_1_alg».proof.Proof.Spec
import Idealize.ShloMosaic.Lib.Pipeline.Value

noncomputable section

namespace Cert.Net.Head

open Cert.KernelIdeal Cert.KernelIdeal.Gen Cert.Net
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic is the read-out of its five loaded blocks. -/
theorem pay_eq (x0 : Vec Ideal S2048x128 .f32) (x1 : Vec Ideal S128x64 .f32) (x2 : Vec Ideal S64 .f32)
    (x3 : Vec Ideal S64x1 .f32) (x4 : Vec Ideal S1 .f32) :
    k3_pay1 x0 x1 x2 x3 x4 = readOut (M := 2048) (K := 128) (N := 64) x0 x1 x2 x3 x4 := by
  have h0 : shapeCast S2048x128 x0 Facts₀.shapeCasts_S2048x128_S2048x128 = x0 := shapeCast_self _ _
  simp only [k3_pay1, h0]
  have hA := affine_matmul (M := 2048) (K := 128) (N := 64) Facts₀.bitsLt_bf16_f32 x0 x1 x2 Facts₀.shapeCasts_S64_S1x64 Facts₀.broadcasts_S1x64_S2048x64
  have hR : maximumf (affine (M := 2048) (K := 128) (N := 64) x0 x1 x2)
      (broadcast S2048x64 (Scalar.ofBits (F := Ideal) .f32 0x00000000#32)) = reluAffine (M := 2048) (K := 128) (N := 64) x0 x1 x2 :=
    posPart_splat _
  have hB := affine_matmul (M := 2048) (K := 64) (N := 1) Facts₀.bitsLt_bf16_f32 (reluAffine (M := 2048) (K := 128) (N := 64) x0 x1 x2) x3 x4
    Facts₀.shapeCasts_S1_S1x1 Facts₀.broadcasts_S1x1_S2048x1
  exact congrArg (fun Y : FVec Ideal S2048x1 .f32 => logistic Y)
    ((congrArg (fun Z : FVec Ideal S2048x64 .f32 =>
        addf (matmul dot_S2048x64_S64x1_S2048x1_1_0_0_1_n_n none (truncf .bf16 Z Facts₀.bitsLt_bf16_f32) (truncf .bf16 x3 Facts₀.bitsLt_bf16_f32)
            (constant S2048x1 .f32 0x00000000#32))
          (broadcastTo S2048x1 (shapeCast S1x1 x4 Facts₀.shapeCasts_S1_S1x1) Facts₀.broadcasts_S1x1_S2048x1))
      ((congrArg (fun Y : FVec Ideal S2048x64 .f32 =>
          maximumf Y (broadcast S2048x64 (Scalar.ofBits (F := Ideal) .f32 0x00000000#32))) hA).trans hR)).trans hB)

/-- The index maps over the grid: the gathered rows' block and the output block move together down the rows, the
    four parameter arrays stay put, and point t's row block is block t. -/
theorem idx_facts : ∀ t : Fin cfg3.N, win3_0.index t (0 : Fin 2) = win3_5.index t (0 : Fin 2)
    ∧ win3_0.index t (1 : Fin 2) = 0 ∧ win3_1.index t (0 : Fin 2) = 0 ∧ win3_1.index t (1 : Fin 2) = 0
    ∧ win3_2.index t (0 : Fin 1) = 0 ∧ win3_3.index t (0 : Fin 2) = 0 ∧ win3_3.index t (1 : Fin 2) = 0
    ∧ win3_4.index t (0 : Fin 1) = 0 ∧ win3_5.index t (1 : Fin 2) = 0 ∧ win3_5.index t (0 : Fin 2) = t.val :=
  (by decide +kernel : ∀ t : Fin grid3.N, _)

/-- What point t writes back is block t of the read-out of the arrays the region finds. -/
theorem flushed_eq (c : Dev nD) (t : Fin cfg3.N) :
    (dat3 V c).flushed 5 t = ((cfg3.win 5).blk t).view.read (Elt Ideal)
      (readOut (M := 8192) (K := 128) (N := 64) (V c main_v33) (V c main_arg9) (V c main_arg10) (V c main_arg11) (V c main_arg12)) := by
  show (cfg3.win 5).cut (grid3.coords t) ((dat3 V c).after 5 t) = _
  rw [after3_5]
  unfold out3_5
  rw [View.canon_unit_zero hz2]
  simp only [View.ld_unit_zero (S := S2048x128) hz2, View.ld_unit_zero (S := S128x64) hz2, View.ld_unit_zero (S := S64) hz1,
    View.ld_unit_zero (S := S64x1) hz2, View.ld_unit_zero (S := S1) hz1]
  rw [pay_eq]
  obtain ⟨e0, e1, e2, e3, e4, e5, e6, e7, e8, e9⟩ := idx_facts t
  funext j
  show readOut (M := 2048) (K := 128) (N := 64) (iblk3 V c 0 t) (iblk3 V c 1 t) (iblk3 V c 2 t) (iblk3 V c 3 t) (iblk3 V c 4 t) j
      = readOut (M := 8192) (K := 128) (N := 64) (V c main_v33) (V c main_arg9) (V c main_arg10) (V c main_arg11) (V c main_arg12)
        (((cfg3.win 5).blk t).view.emb j)
  refine readOut_congr (M := 2048) (M' := 8192) (K := 128) (N := 64) (iblk3 V c 0 t) (V c main_v33) (iblk3 V c 1 t) (V c main_arg9)
    (iblk3 V c 2 t) (V c main_arg10) (iblk3 V c 3 t) (V c main_arg11) (iblk3 V c 4 t) (V c main_arg12) j
    (((cfg3.win 5).blk t).view.emb j) (fun k => ?_) ?_ ?_ ?_ ?_
  · show V c main_v33 (((cfg3.win 0).blk t).view.emb (ix2 (n0 := 2048) (n1 := 128) (j 0) k))
      = V c main_v33 (ix2 (n0 := 8192) (n1 := 128) ((((cfg3.win 5).blk t).view.emb j) 0) k)
    refine congrArg (V c main_v33) (funext fun a => Fin.ext ?_)
    match a with
    | ⟨0, _⟩ => show win3_0.index t (0 : Fin 2) * 2048 + 1 * (j 0).val = win3_5.index t (0 : Fin 2) * 2048 + 1 * (j 0).val; omega
    | ⟨1, _⟩ => show win3_0.index t (1 : Fin 2) * 128 + 1 * k.val = k.val; omega
  · funext y
    show V c main_arg9 (((cfg3.win 1).blk t).view.emb y) = V c main_arg9 y
    refine congrArg (V c main_arg9) (funext fun a => Fin.ext ?_)
    match a with
    | ⟨0, _⟩ => show win3_1.index t (0 : Fin 2) * 128 + 1 * (y 0).val = (y 0).val; omega
    | ⟨1, _⟩ => show win3_1.index t (1 : Fin 2) * 64 + 1 * (y 1).val = (y 1).val; omega
  · funext y
    show V c main_arg10 (((cfg3.win 2).blk t).view.emb y) = V c main_arg10 y
    refine congrArg (V c main_arg10) (funext fun a => Fin.ext ?_)
    match a with
    | ⟨0, _⟩ => show win3_2.index t (0 : Fin 1) * 64 + 1 * (y 0).val = (y 0).val; omega
  · funext y
    show V c main_arg11 (((cfg3.win 3).blk t).view.emb y) = V c main_arg11 y
    refine congrArg (V c main_arg11) (funext fun a => Fin.ext ?_)
    match a with
    | ⟨0, _⟩ => show win3_3.index t (0 : Fin 2) * 64 + 1 * (y 0).val = (y 0).val; omega
    | ⟨1, _⟩ => show win3_3.index t (1 : Fin 2) * 1 + 1 * (y 1).val = (y 1).val; omega
  · funext y
    show V c main_arg12 (((cfg3.win 4).blk t).view.emb y) = V c main_arg12 y
    refine congrArg (V c main_arg12) (funext fun a => Fin.ext ?_)
    match a with
    | ⟨0, _⟩ => show win3_4.index t (0 : Fin 1) * 1 + 1 * (y 0).val = (y 0).val; omega

/-- An index of the output column is in point t's block iff each coordinate is in the block's range on its axis. -/
theorem mem_blk (t : Fin cfg3.N) (i : S8192x1.Idx) :
    i ∈ ((cfg3.win 5).blk t).view.set ↔ ∀ a : Fin 2, win3_5.index t a * S2048x1.size a ≤ (i a).val
      ∧ (i a).val < win3_5.index t a * S2048x1.size a + S2048x1.size a := by
  show i ∈ ((View.whole main_v34).slice (win3_5.rect t)).set ↔ _
  rw [View.set_slice_whole, Rect.mem_set_unit]
  exact Iff.rfl

/-- Row r of the output column is in the block of point r / 2048. -/
theorem cover (i : S8192x1.Idx) :
    ∃ t : Fin cfg3.N, (cfg3.win 5).flush t = true ∧ i ∈ ((cfg3.win 5).blk t).view.set := by
  have hi0 : (i 0).val < 8192 := (i 0).isLt
  have hi1 : (i 1).val < 1 := (i 1).isLt
  have hN : grid3.N = 4 := N_3
  have ht : (i 0).val / 2048 < grid3.N := by omega
  obtain ⟨-, -, -, -, -, -, -, -, e8, e9⟩ := idx_facts ⟨(i 0).val / 2048, ht⟩
  refine ⟨⟨(i 0).val / 2048, ht⟩, flush3_5 _, ?_⟩
  rw [mem_blk]
  intro a
  match a with
  | ⟨0, _⟩ =>
    show win3_5.index ⟨(i 0).val / 2048, ht⟩ (0 : Fin 2) * 2048 ≤ (i 0).val
      ∧ (i 0).val < win3_5.index ⟨(i 0).val / 2048, ht⟩ (0 : Fin 2) * 2048 + 2048
    have e9' : win3_5.index ⟨(i 0).val / 2048, ht⟩ (0 : Fin 2) = (i 0).val / 2048 := e9
    omega
  | ⟨1, _⟩ =>
    show win3_5.index ⟨(i 0).val / 2048, ht⟩ (1 : Fin 2) * 1 ≤ (i 1).val
      ∧ (i 1).val < win3_5.index ⟨(i 0).val / 2048, ht⟩ (1 : Fin 2) * 1 + 1
    omega

/-- The output column after the region: the read-out of the gathered rows and the four parameter arrays it found. -/
theorem value (c : Dev nD) : (dat3 V c).arrAt 5 cfg3.N
    = readOut (M := 8192) (K := 128) (N := 64) (V c main_v33) (V c main_arg9) (V c main_arg10) (V c main_arg11) (V c main_arg12) :=
  (dat3 V c).arrAt_eq_of_cover 5 _ (fun t _ => flushed_eq V c t) cover

end Cert.Net.Head

end
-- ==== Proof.Net.lean ====
/-
  The network as one function of the thirteen argument arrays.

  The edge list's two rows are the edges' source and destination node numbers.  One aggregation gathers the rows of a
  hidden matrix h at the sources (a negative node number counted from the end) and adds them into the rows of a zero
  matrix at the destinations: row v of the result is the sum of h's rows over the edges into v.  The first hidden
  matrix is the rectified layer of the node features; each of the next two is the rectified layer of the previous
  one plus its aggregation.  The rows of the last hidden matrix at the posts' node numbers go through the read-out,
  and the resulting column is flattened.  The gather and the scatter-add are never opened: both programs apply the
  same two operations to values shown equal.
-/
import proofs.«151546_j37460704755812_1_alg».proof.ReferenceIdeal
import proofs.«151546_j37460704755812_1_alg».proof.Proof.Gen.ReferenceIdeal
import proofs.«151546_j37460704755812_1_alg».proof.Proof.Spec

noncomputable section

namespace Cert.Net

open Cert.ReferenceIdeal Idealize.ShloMosaic Idealize.ShloMosaic.TcCoe

/-- Row 0 of the edge list, flat: the edges' source node numbers. -/
def edgeRow0 (E : (⟨S2x1600000, .i32⟩ : BufTy).Contents (Elt Ideal)) : (⟨S1600000, .i32⟩ : BufTy).Contents (Elt Ideal) :=
  shapeCast S1600000 (extractStridedSlice S1x1600000 ![0, 0] E Facts₀.slices_S2x1600000_S1x1600000_0_0)
    Facts₀.shapeCasts_S1x1600000_S1600000

/-- Row 1 of the edge list, flat: the edges' destination node numbers. -/
def edgeRow1 (E : (⟨S2x1600000, .i32⟩ : BufTy).Contents (Elt Ideal)) : (⟨S1600000, .i32⟩ : BufTy).Contents (Elt Ideal) :=
  shapeCast S1600000 (extractStridedSlice S1x1600000 ![1, 0] E Facts₀.slices_S2x1600000_S1x1600000_1_0)
    Facts₀.shapeCasts_S1x1600000_S1600000

/-- The edges' node numbers as a column of start indices, a negative number counted from the end (50000 added). -/
def wrapEdges (e : (⟨S1600000, .i32⟩ : BufTy).Contents (Elt Ideal)) : (⟨S1600000x1, .i32⟩ : BufTy).Contents (Elt Ideal) :=
  broadcastInDim S1600000x1 ![0] Facts₀.bcast_S1600000_S1600000x1_0
    (select (cmpi .slt e (broadcastInDim S1600000 ![] Facts₀.bcast_S_S1600000 (constantI S_ 32 0#32)))
      (addi e (broadcastInDim S1600000 ![] Facts₀.bcast_S_S1600000 (constantI S_ 32 50000#32))) e)

/-- The posts' node numbers as a column of start indices, a negative number counted from the end (50000 added). -/
def wrapPosts (p : (⟨S8192, .i32⟩ : BufTy).Contents (Elt Ideal)) : (⟨S8192x1, .i32⟩ : BufTy).Contents (Elt Ideal) :=
  broadcastInDim S8192x1 ![0] Facts₀.bcast_S8192_S8192x1_0
    (select (cmpi .slt p (broadcastInDim S8192 ![] Facts₀.bcast_S_S8192 (constantI S_ 32 0#32)))
      (addi p (broadcastInDim S8192 ![] Facts₀.bcast_S_S8192 (constantI S_ 32 50000#32))) p)

/-- One aggregation: the rows of h at the edges' sources, added into a zero matrix at the edges' destinations. -/
def aggregate (h : (⟨S50000x128, .f32⟩ : BufTy).Contents (Elt Ideal))
    (src dst : (⟨S1600000, .i32⟩ : BufTy).Contents (Elt Ideal)) : (⟨S50000x128, .f32⟩ : BufTy).Contents (Elt Ideal) :=
  Host.scatterAdd scatter_S50000x128_S1600000x1_S1600000x128_1_0_0_1
    (broadcastInDim S50000x128 ![] Facts₀.bcast_S_S50000x128 (constant (F := Ideal) S_ .f32 0x00000000#32))
    (broadcastInDim S1600000x1 ![0] Facts₀.bcast_S1600000_S1600000x1_0 dst)
    (Host.gather gather_S50000x128_S1600000x1_S1600000x128_1_0_n_n_0_1_1128 h (wrapEdges src))

/-- The rows of h at the posts' node numbers. -/
def pick (h : (⟨S50000x128, .f32⟩ : BufTy).Contents (Elt Ideal)) (p : (⟨S8192, .i32⟩ : BufTy).Contents (Elt Ideal)) :
    (⟨S8192x128, .f32⟩ : BufTy).Contents (Elt Ideal) :=
  Host.gather gather_S50000x128_S8192x1_S8192x128_1_0_n_n_0_1_1128 h (wrapPosts p)

/-- A hidden matrix from the previous one: the rectified layer of the previous matrix plus its aggregation. -/
def step (h : (⟨S50000x128, .f32⟩ : BufTy).Contents (Elt Ideal)) (E : (⟨S2x1600000, .i32⟩ : BufTy).Contents (Elt Ideal))
    (W : (⟨S128x128, .f32⟩ : BufTy).Contents (Elt Ideal)) (b : (⟨S128, .f32⟩ : BufTy).Contents (Elt Ideal)) :
    (⟨S50000x128, .f32⟩ : BufTy).Contents (Elt Ideal) :=
  reluAffine (M := 50000) (K := 128) (N := 128) (addf (aggregate h (edgeRow0 E) (edgeRow1 E)) h) W b

/-- The whole network: encoder, two aggregation steps, the posts' rows, the read-out, flattened. -/
def network (a0 : (⟨S50000x128, .f32⟩ : BufTy).Contents (Elt Ideal)) (a1 : (⟨S2x1600000, .i32⟩ : BufTy).Contents (Elt Ideal))
    (a2 : (⟨S8192, .i32⟩ : BufTy).Contents (Elt Ideal))
    (a3 : (⟨S128x128, .f32⟩ : BufTy).Contents (Elt Ideal)) (a4 : (⟨S128, .f32⟩ : BufTy).Contents (Elt Ideal))
    (a5 : (⟨S128x128, .f32⟩ : BufTy).Contents (Elt Ideal)) (a6 : (⟨S128, .f32⟩ : BufTy).Contents (Elt Ideal))
    (a7 : (⟨S128x128, .f32⟩ : BufTy).Contents (Elt Ideal)) (a8 : (⟨S128, .f32⟩ : BufTy).Contents (Elt Ideal))
    (a9 : (⟨S128x64, .f32⟩ : BufTy).Contents (Elt Ideal)) (a10 : (⟨S64, .f32⟩ : BufTy).Contents (Elt Ideal))
    (a11 : (⟨S64x1, .f32⟩ : BufTy).Contents (Elt Ideal)) (a12 : (⟨S1, .f32⟩ : BufTy).Contents (Elt Ideal)) :
    (⟨S8192, .f32⟩ : BufTy).Contents (Elt Ideal) :=
  shapeCast S8192
    (readOut (M := 8192) (K := 128) (N := 64)
      (pick (step (step (reluAffine (M := 50000) (K := 128) (N := 128) a0 a3 a4) a1 a5 a6) a1 a7 a8) a2) a9 a10 a11 a12)
    Facts₀.shapeCasts_S8192x1_S8192

end Cert.Net

end
-- ==== Proof.Chain.lean ====
/-
  The result buffer at the end of the chain of stretches and regions, read down to the launch memory.

  The boundaries are walked from the launch: the first stretch cuts the edge list into its two rows; the encoder
  region leaves the first hidden matrix; each of the next two stretches aggregates the current hidden matrix along
  the edges and the region after it leaves the next hidden matrix; the fourth stretch picks the posts' rows; the
  read-out region leaves the output column, which the last stretch flattens.  A buffer that a stretch or a region
  does not write keeps its contents across it, so the parameter arrays and the edge rows reach the stage that reads
  them as launched.  Put together, the result buffer holds the network of the thirteen argument arrays.
-/
import proofs.«151546_j37460704755812_1_alg».proof.Proof.Enc
import proofs.«151546_j37460704755812_1_alg».proof.Proof.Conv1
import proofs.«151546_j37460704755812_1_alg».proof.Proof.Conv2
import proofs.«151546_j37460704755812_1_alg».proof.Proof.Head
import proofs.«151546_j37460704755812_1_alg».proof.Proof.Net
import Idealize.ShloMosaic.Lib.StableHlo.Run

noncomputable section

namespace Cert.Net.Chain

open Cert.KernelIdeal Cert.KernelIdeal.Gen Cert.Net
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Read a buffer through one stretch of host operations: what the stretch computes into it, or what it held. -/
syntax "thru " term:max term:max : tactic
macro_rules
  | `(tactic| thru $ops $r) => `(tactic| (show StableHlo.after $ops _ (Proc.devRef .tc $r) = _; after_results))

/-! ## After the first stretch: the edge rows, and the arguments as launched -/

theorem w1_v1 : W1 m ρ c (Proc.devRef .tc main_v1) = edgeRow0 (m ((c.tc : Thread nD τ).loc main_arg1)) := by
  thru hostOps0 main_v1
  all_goals rfl
theorem w1_v3 : W1 m ρ c (Proc.devRef .tc main_v3) = edgeRow1 (m ((c.tc : Thread nD τ).loc main_arg1)) := by
  thru hostOps0 main_v3
  all_goals rfl
theorem w1_arg0 : W1 m ρ c (Proc.devRef .tc main_arg0) = m ((c.tc : Thread nD τ).loc main_arg0) := by
  thru hostOps0 main_arg0
  all_goals rfl
theorem w1_arg3 : W1 m ρ c (Proc.devRef .tc main_arg3) = m ((c.tc : Thread nD τ).loc main_arg3) := by
  thru hostOps0 main_arg3
  all_goals rfl
theorem w1_arg4 : W1 m ρ c (Proc.devRef .tc main_arg4) = m ((c.tc : Thread nD τ).loc main_arg4) := by
  thru hostOps0 main_arg4
  all_goals rfl

/-! ## After the encoder region: the first hidden matrix -/

theorem w2_v4 : W2 m ρ c (Proc.devRef .tc main_v4) = (reluAffine (M := 50000) (K := 128) (N := 128) (m ((c.tc : Thread nD τ).loc main_arg0)) (m ((c.tc : Thread nD τ).loc main_arg3)) (m ((c.tc : Thread nD τ).loc main_arg4))) := by
  refine (W2_arr m ρ c 3).trans ((Enc.value (V1 m ρ) c).trans ?_)
  show reluAffine (M := 50000) (K := 128) (N := 128) (W1 m ρ c (Proc.devRef .tc main_arg0)) (W1 m ρ c (Proc.devRef .tc main_arg3))
    (W1 m ρ c (Proc.devRef .tc main_arg4)) = _
  rw [w1_arg0, w1_arg3, w1_arg4]
theorem w2_v1 : W2 m ρ c (Proc.devRef .tc main_v1) = edgeRow0 (m ((c.tc : Thread nD τ).loc main_arg1)) := by
  rw [W2_of_ne m ρ c main_v1 (by decide)]; exact w1_v1 m ρ c
theorem w2_v3 : W2 m ρ c (Proc.devRef .tc main_v3) = edgeRow1 (m ((c.tc : Thread nD τ).loc main_arg1)) := by
  rw [W2_of_ne m ρ c main_v3 (by decide)]; exact w1_v3 m ρ c

/-! ## After the second stretch: the first aggregation -/

set_option maxHeartbeats 4000000 in
theorem w3_v14 : W3 m ρ c (Proc.devRef .tc main_v14) = aggregate (reluAffine (M := 50000) (K := 128) (N := 128) (m ((c.tc : Thread nD τ).loc main_arg0)) (m ((c.tc : Thread nD τ).loc main_arg3)) (m ((c.tc : Thread nD τ).loc main_arg4))) (edgeRow0 (m ((c.tc : Thread nD τ).loc main_arg1))) (edgeRow1 (m ((c.tc : Thread nD τ).loc main_arg1))) := by
  thru hostOps1 main_v14
  rw [w2_v4, w2_v1, w2_v3]
  rfl
theorem w3_v4 : W3 m ρ c (Proc.devRef .tc main_v4) = (reluAffine (M := 50000) (K := 128) (N := 128) (m ((c.tc : Thread nD τ).loc main_arg0)) (m ((c.tc : Thread nD τ).loc main_arg3)) (m ((c.tc : Thread nD τ).loc main_arg4))) := by
  thru hostOps1 main_v4
  exact w2_v4 m ρ c
theorem w3_arg5 : W3 m ρ c (Proc.devRef .tc main_arg5) = m ((c.tc : Thread nD τ).loc main_arg5) := by
  thru hostOps1 main_arg5
  rw [W2_of_ne m ρ c main_arg5 (by decide)]
  thru hostOps0 main_arg5
  all_goals rfl
theorem w3_arg6 : W3 m ρ c (Proc.devRef .tc main_arg6) = m ((c.tc : Thread nD τ).loc main_arg6) := by
  thru hostOps1 main_arg6
  rw [W2_of_ne m ρ c main_arg6 (by decide)]
  thru hostOps0 main_arg6
  all_goals rfl

/-! ## After the first aggregation-and-layer region: the second hidden matrix -/

theorem w4_v15 : W4 m ρ c (Proc.devRef .tc main_v15) = (step (reluAffine (M := 50000) (K := 128) (N := 128) (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6))) := by
  refine (W4_arr m ρ c 4).trans ((Conv1.value (V3 m ρ) c).trans ?_)
  show reluAffine (M := 50000) (K := 128) (N := 128) (addf (W3 m ρ c (Proc.devRef .tc main_v14)) (W3 m ρ c (Proc.devRef .tc main_v4)))
    (W3 m ρ c (Proc.devRef .tc main_arg5)) (W3 m ρ c (Proc.devRef .tc main_arg6)) = _
  rw [w3_v14, w3_v4, w3_arg5, w3_arg6]
  rfl
theorem w4_v1 : W4 m ρ c (Proc.devRef .tc main_v1) = edgeRow0 (m ((c.tc : Thread nD τ).loc main_arg1)) := by
  rw [W4_of_ne m ρ c main_v1 (by decide)]
  thru hostOps1 main_v1
  exact w2_v1 m ρ c
theorem w4_v3 : W4 m ρ c (Proc.devRef .tc main_v3) = edgeRow1 (m ((c.tc : Thread nD τ).loc main_arg1)) := by
  rw [W4_of_ne m ρ c main_v3 (by decide)]
  thru hostOps1 main_v3
  exact w2_v3 m ρ c

/-! ## After the third stretch: the second aggregation -/

set_option maxHeartbeats 4000000 in
theorem w5_v25 : W5 m ρ c (Proc.devRef .tc main_v25) = aggregate (step (reluAffine (M := 50000) (K := 128) (N := 128) (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6))) (edgeRow0 (m ((c.tc : Thread nD τ).loc main_arg1))) (edgeRow1 (m ((c.tc : Thread nD τ).loc main_arg1))) := by
  thru hostOps2 main_v25
  rw [w4_v15, w4_v1, w4_v3]
  rfl
theorem w5_v15 : W5 m ρ c (Proc.devRef .tc main_v15) = (step (reluAffine (M := 50000) (K := 128) (N := 128) (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6))) := by
  thru hostOps2 main_v15
  exact w4_v15 m ρ c
theorem w5_arg7 : W5 m ρ c (Proc.devRef .tc main_arg7) = m ((c.tc : Thread nD τ).loc main_arg7) := by
  thru hostOps2 main_arg7
  rw [W4_of_ne m ρ c main_arg7 (by decide)]
  thru hostOps1 main_arg7
  rw [W2_of_ne m ρ c main_arg7 (by decide)]
  thru hostOps0 main_arg7
  all_goals rfl
theorem w5_arg8 : W5 m ρ c (Proc.devRef .tc main_arg8) = m ((c.tc : Thread nD τ).loc main_arg8) := by
  thru hostOps2 main_arg8
  rw [W4_of_ne m ρ c main_arg8 (by decide)]
  thru hostOps1 main_arg8
  rw [W2_of_ne m ρ c main_arg8 (by decide)]
  thru hostOps0 main_arg8
  all_goals rfl

/-! ## After the second aggregation-and-layer region: the third hidden matrix -/

theorem w6_v26 : W6 m ρ c (Proc.devRef .tc main_v26) = (step (step (reluAffine (M := 50000) (K := 128) (N := 128) (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6))) (m ((c.tc : Thread nD τ).loc main_arg1)) (m ((c.tc : Thread nD τ).loc main_arg7)) (m ((c.tc : Thread nD τ).loc main_arg8))) := by
  refine (W6_arr m ρ c 4).trans ((Conv2.value (V5 m ρ) c).trans ?_)
  show reluAffine (M := 50000) (K := 128) (N := 128) (addf (W5 m ρ c (Proc.devRef .tc main_v25)) (W5 m ρ c (Proc.devRef .tc main_v15)))
    (W5 m ρ c (Proc.devRef .tc main_arg7)) (W5 m ρ c (Proc.devRef .tc main_arg8)) = _
  rw [w5_v25, w5_v15, w5_arg7, w5_arg8]
  rfl
theorem w6_arg2 : W6 m ρ c (Proc.devRef .tc main_arg2) = m ((c.tc : Thread nD τ).loc main_arg2) := by
  rw [W6_of_ne m ρ c main_arg2 (by decide)]
  thru hostOps2 main_arg2
  rw [W4_of_ne m ρ c main_arg2 (by decide)]
  thru hostOps1 main_arg2
  rw [W2_of_ne m ρ c main_arg2 (by decide)]
  thru hostOps0 main_arg2
  all_goals rfl

/-! ## After the fourth stretch: the posts' rows -/

set_option maxHeartbeats 4000000 in
theorem w7_v33 : W7 m ρ c (Proc.devRef .tc main_v33) = pick (step (step (reluAffine (M := 50000) (K := 128) (N := 128) (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6))) (m ((c.tc : Thread nD τ).loc main_arg1)) (m ((c.tc : Thread nD τ).loc main_arg7)) (m ((c.tc : Thread nD τ).loc main_arg8))) (m ((c.tc : Thread nD τ).loc main_arg2)) := by
  thru hostOps3 main_v33
  rw [w6_v26, w6_arg2]
  rfl
theorem w7_arg9 : W7 m ρ c (Proc.devRef .tc main_arg9) = m ((c.tc : Thread nD τ).loc main_arg9) := by
  thru hostOps3 main_arg9
  rw [W6_of_ne m ρ c main_arg9 (by decide)]
  thru hostOps2 main_arg9
  rw [W4_of_ne m ρ c main_arg9 (by decide)]
  thru hostOps1 main_arg9
  rw [W2_of_ne m ρ c main_arg9 (by decide)]
  thru hostOps0 main_arg9
  all_goals rfl
theorem w7_arg10 : W7 m ρ c (Proc.devRef .tc main_arg10) = m ((c.tc : Thread nD τ).loc main_arg10) := by
  thru hostOps3 main_arg10
  rw [W6_of_ne m ρ c main_arg10 (by decide)]
  thru hostOps2 main_arg10
  rw [W4_of_ne m ρ c main_arg10 (by decide)]
  thru hostOps1 main_arg10
  rw [W2_of_ne m ρ c main_arg10 (by decide)]
  thru hostOps0 main_arg10
  all_goals rfl
theorem w7_arg11 : W7 m ρ c (Proc.devRef .tc main_arg11) = m ((c.tc : Thread nD τ).loc main_arg11) := by
  thru hostOps3 main_arg11
  rw [W6_of_ne m ρ c main_arg11 (by decide)]
  thru hostOps2 main_arg11
  rw [W4_of_ne m ρ c main_arg11 (by decide)]
  thru hostOps1 main_arg11
  rw [W2_of_ne m ρ c main_arg11 (by decide)]
  thru hostOps0 main_arg11
  all_goals rfl
theorem w7_arg12 : W7 m ρ c (Proc.devRef .tc main_arg12) = m ((c.tc : Thread nD τ).loc main_arg12) := by
  thru hostOps3 main_arg12
  rw [W6_of_ne m ρ c main_arg12 (by decide)]
  thru hostOps2 main_arg12
  rw [W4_of_ne m ρ c main_arg12 (by decide)]
  thru hostOps1 main_arg12
  rw [W2_of_ne m ρ c main_arg12 (by decide)]
  thru hostOps0 main_arg12
  all_goals rfl

/-! ## After the read-out region, and the last stretch -/

theorem w8_v34 : W8 m ρ c (Proc.devRef .tc main_v34)
    = readOut (M := 8192) (K := 128) (N := 64) (pick (step (step (reluAffine (M := 50000) (K := 128) (N := 128) (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6))) (m ((c.tc : Thread nD τ).loc main_arg1)) (m ((c.tc : Thread nD τ).loc main_arg7)) (m ((c.tc : Thread nD τ).loc main_arg8))) (m ((c.tc : Thread nD τ).loc main_arg2))) (m ((c.tc : Thread nD τ).loc main_arg9)) (m ((c.tc : Thread nD τ).loc main_arg10)) (m ((c.tc : Thread nD τ).loc main_arg11)) (m ((c.tc : Thread nD τ).loc main_arg12)) := by
  refine (W8_arr m ρ c 5).trans ((Head.value (V7 m ρ) c).trans ?_)
  show readOut (M := 8192) (K := 128) (N := 64) (W7 m ρ c (Proc.devRef .tc main_v33)) (W7 m ρ c (Proc.devRef .tc main_arg9))
    (W7 m ρ c (Proc.devRef .tc main_arg10)) (W7 m ρ c (Proc.devRef .tc main_arg11)) (W7 m ρ c (Proc.devRef .tc main_arg12)) = _
  rw [w7_v33, w7_arg9, w7_arg10, w7_arg11, w7_arg12]

/-- The result buffer at the last boundary is the network of the argument arrays. -/
theorem result : W9 m ρ c (Proc.devRef .tc main_v35)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  thru hostOps4 main_v35
  rw [w8_v34]
  rfl

end Cert.Net.Chain

end
-- ==== Proof.RefSide.lean ====
/-
  The reference computes the network.  Its result is one composed term of the argument arrays; inside it each layer
  is spelt as a general dot product plus a bias broadcast in two steps, rectified against a broadcast scalar zero, and
  the logistic function as 1 / (1 + exp(-x)) on the flattened column.  Each such piece is the layer of the
  specification, and with the pieces renamed the term IS the network: the same gathers and scatter-adds of the same
  values.
-/
import proofs.«151546_j37460704755812_1_alg».proof.Proof.Gen.ReferenceIdeal.Run
import proofs.«151546_j37460704755812_1_alg».proof.Proof.Net

noncomputable section

namespace Cert.Net.Ref

open Cert.ReferenceIdeal Cert.Net Idealize.ShloMosaic Idealize.ShloMosaic.TcCoe Idealize.SL.Sem

/-- A 128-to-128 rectified layer over the 50000 nodes, in the reference's spelling. -/
theorem layer128 (X : FVec Ideal S50000x128 .f32) (W : FVec Ideal S128x128 .f32)
    (b : FVec Ideal S128 .f32) :
    maximumf (addf (Host.dotGeneral dot_S50000x128_S128x128_S50000x128_1_0_0_1_n_n none X W)
        (broadcastInDim S50000x128 ![0, 1] Facts₀.bcast_S1x128_S50000x128_0_1 (broadcastInDim S1x128 ![1] Facts₀.bcast_S128_S1x128_1 b)))
      (broadcastInDim S50000x128 ![] Facts₀.bcast_S_S50000x128 (constant (F := Ideal) S_ .f32 0x00000000#32))
    = reluAffine (M := 50000) (K := 128) (N := 128) X W b :=
  (congrArg (fun Y => maximumf Y (broadcastInDim S50000x128 ![] Facts₀.bcast_S_S50000x128 (constant (F := Ideal) S_ .f32 0x00000000#32)))
    (affine_host (M := 50000) (K := 128) (N := 128) X W b _ _)).trans (posPart_host _ Facts₀.bcast_S_S50000x128)

/-- The read-out's 128-to-64 rectified layer over the 8192 posts, in the reference's spelling. -/
theorem layer64 (X : FVec Ideal S8192x128 .f32) (W : FVec Ideal S128x64 .f32)
    (b : FVec Ideal S64 .f32) :
    maximumf (addf (Host.dotGeneral dot_S8192x128_S128x64_S8192x64_1_0_0_1_n_n none X W)
        (broadcastInDim S8192x64 ![0, 1] Facts₀.bcast_S1x64_S8192x64_0_1 (broadcastInDim S1x64 ![1] Facts₀.bcast_S64_S1x64_1 b)))
      (broadcastInDim S8192x64 ![] Facts₀.bcast_S_S8192x64 (constant (F := Ideal) S_ .f32 0x00000000#32))
    = reluAffine (M := 8192) (K := 128) (N := 64) X W b :=
  (congrArg (fun Y => maximumf Y (broadcastInDim S8192x64 ![] Facts₀.bcast_S_S8192x64 (constant (F := Ideal) S_ .f32 0x00000000#32)))
    (affine_host (M := 8192) (K := 128) (N := 64) X W b _ _)).trans (posPart_host _ Facts₀.bcast_S_S8192x64)

/-- The read-out's 64-to-1 affine layer, in the reference's spelling. -/
theorem affine1 (X : FVec Ideal S8192x64 .f32) (W : FVec Ideal S64x1 .f32)
    (b : FVec Ideal S1 .f32) :
    addf (Host.dotGeneral dot_S8192x64_S64x1_S8192x1_1_0_0_1_n_n none X W)
        (broadcastInDim S8192x1 ![0, 1] Facts₀.bcast_S1x1_S8192x1_0_1 (broadcastInDim S1x1 ![1] Facts₀.bcast_S1_S1x1_1 b))
    = affine (M := 8192) (K := 64) (N := 1) X W b :=
  affine_host (M := 8192) (K := 64) (N := 1) X W b _ _

/-- The logistic function on the flattened column, in the reference's spelling. -/
theorem logistic8192 (Y : FVec Ideal S8192x1 .f32) :
    Host.divf (broadcastInDim S8192 ![] Facts₀.bcast_S_S8192 (constant (F := Ideal) S_ .f32 0x3F800000#32))
      (addf (broadcastInDim S8192 ![] Facts₀.bcast_S_S8192 (constant (F := Ideal) S_ .f32 0x3F800000#32))
        (Host.exp (Host.negf (shapeCast S8192 Y Facts₀.shapeCasts_S8192x1_S8192))))
    = shapeCast S8192 (sigmoid Y) Facts₀.shapeCasts_S8192x1_S8192 :=
  sigmoid_host (n := 8192) Y _ _

set_option maxRecDepth 200000 in
/-- The reference's result term is the network of the argument arrays. -/
theorem result_eq (m : (ℓ : Loc nD τ sig) → Buf (Elt Ideal) ℓ) (c : Dev nD) :
    Value.res_main_v63 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) := by
  unfold Value.res_main_v63
  show Host.divf _ (addf _ (Host.exp (Host.negf (shapeCast S8192 _ Facts₀.shapeCasts_S8192x1_S8192)))) = _
  rw [logistic8192, affine1, layer64]
  repeat rw [layer128]
  unfold network step aggregate pick wrapEdges wrapPosts edgeRow0 edgeRow1 readOut
  rfl

end Cert.Net.Ref

end
-- ==== Proof.lean ====
/-
  A three-layer message-passing network over 50000 nodes and 1600000 edges with a logistic read-out on 8192 posts,
  computed two ways, is one function of its thirteen argument arrays on the extended reals.

  Both programs cut the edge list into source and destination rows, and both gather hidden rows at the sources and
  scatter-add them at the destinations with the same two host operations.  They differ in the dense layers: one
  program computes each layer in a kernel region, block of rows by block of rows, as a matrix product of operands
  narrowed to a shorter float format (the identity on the extended reals) into a zero accumulator; the other computes
  it as one general dot product over all rows.  Either way row p, column q of a layer is the sum over k of
  X(p,k)·W(k,q) plus the bias b(q), rectified by max(·, 0); a row of the result reads the same row of the input only,
  so the blocks of a region are the blocks of the whole layer and tile it.  The read-out's logistic function is one
  operation in the kernel and the expression 1 / (1 + exp(-x)) in the other program, the same function of every
  extended real.  No law beyond re-indexing a finite sum is used, so the inputs' finiteness is never opened.

  The frames of the two kernel programs are the generated ones; the third program has no kernel and its frame is its
  run with the result dropped; the idealization rewrote nothing, so there is nothing to preserve.
-/
import proofs.«151546_j37460704755812_1_alg».proof.Defs
import proofs.«151546_j37460704755812_1_alg».proof.Proof.Gen.Kernel
import proofs.«151546_j37460704755812_1_alg».proof.Proof.Gen.Kernel.Frame
import proofs.«151546_j37460704755812_1_alg».proof.Proof.Gen.KernelIdeal
import proofs.«151546_j37460704755812_1_alg».proof.Proof.Gen.KernelIdeal.Frame
import proofs.«151546_j37460704755812_1_alg».proof.Proof.Gen.ReferenceIdeal
import proofs.«151546_j37460704755812_1_alg».proof.Proof.Gen.ReferenceIdeal.Run
import proofs.«151546_j37460704755812_1_alg».proof.Proof.Gen.Pre_finite_inputs
import proofs.«151546_j37460704755812_1_alg».proof.Proof.Run
import proofs.«151546_j37460704755812_1_alg».proof.Proof.Chain
import proofs.«151546_j37460704755812_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, run from memories agreeing on the arguments, end with the result buffer at the network
    of the argument arrays. -/
theorem algebraic : Cert.algebraic_KernelIdeal_ReferenceIdeal := by
  intro m ρ m' ρ' _ hagree
  refine ⟨fun c => Cert.Net.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.Net.Chain.result m ρ c), (h c).2⟩) (Cert.Net.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.Net.Ref.result_eq, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
